-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x2048x64 : Shape := ⟨4, ![4, 16, 2048, 64]⟩
abbrev S4x16x64x2048 : Shape := ⟨4, ![4, 16, 64, 2048]⟩
abbrev S4x1x2048x2048 : Shape := ⟨4, ![4, 1, 2048, 2048]⟩
abbrev S_ : Shape := ⟨0, ![]⟩

class Facts : Prop where
  bcast_S_S4x16x2048x64 : S_.BroadcastsInDim S4x16x2048x64 (![] : Fin 0 → Fin S4x16x2048x64.rank)
  reducesTo_S4x16x2048x64_S_d0_1_2_3 : S4x16x2048x64.ReducesTo [0, 1, 2, 3] S_
  h_S_ : 0 < S_.numel
  bcast_S_S4x16x64x2048 : S_.BroadcastsInDim S4x16x64x2048 (![] : Fin 0 → Fin S4x16x64x2048.rank)
  reducesTo_S4x16x64x2048_S_d0_1_2_3 : S4x16x64x2048.ReducesTo [0, 1, 2, 3] S_

variable [Facts]

def fn {F : FTy → Type} [FloatOps F] (main_arg0 : FVec F S4x16x2048x64 .f32) (main_arg1 : FVec F S4x16x64x2048 .f32) (main_arg2 : FVec F S4x16x2048x64 .f32) (main_arg3 : IVec S4x1x2048x2048 1) : IVec S_ 1 :=
  let main_v0 : FVec F S4x16x2048x64 .f32 := Host.absf main_arg0
  let main_cst : FVec F S_ .f32 := constant S_ .f32 0x7F800000#32
  let main_v1 : FVec F S4x16x2048x64 .f32 := broadcastInDim S4x16x2048x64 ![] bcast_S_S4x16x2048x64 main_cst
  let main_v2 : IVec S4x16x2048x64 1 := cmpf .olt main_v0 main_v1
  let main_c : IVec S_ 1 := constantI S_ 1 1#1
  let main_v3 : IVec S_ 1 := (fun x v => Host.reduce IntOp.andi x v reducesTo_S4x16x2048x64_S_d0_1_2_3 h_S_) main_v2 main_c
  let main_v4 : FVec F S4x16x64x2048 .f32 := Host.absf main_arg1
  let main_cst_0 : FVec F S_ .f32 := constant S_ .f32 0x7F800000#32
  let main_v5 : FVec F S4x16x64x2048 .f32 := broadcastInDim S4x16x64x2048 ![] bcast_S_S4x16x64x2048 main_cst_0
  let main_v6 : IVec S4x16x64x2048 1 := cmpf .olt main_v4 main_v5
  let main_c_1 : IVec S_ 1 := constantI S_ 1 1#1
  let main_v7 : IVec S_ 1 := (fun x v => Host.reduce IntOp.andi x v reducesTo_S4x16x64x2048_S_d0_1_2_3 h_S_) main_v6 main_c_1
  let main_v8 : IVec S_ 1 := andi main_v3 main_v7
  let main_v9 : FVec F S4x16x2048x64 .f32 := Host.absf main_arg2
  let main_cst_2 : FVec F S_ .f32 := constant S_ .f32 0x7F800000#32
  let main_v10 : FVec F S4x16x2048x64 .f32 := broadcastInDim S4x16x2048x64 ![] bcast_S_S4x16x2048x64 main_cst_2
  let main_v11 : IVec S4x16x2048x64 1 := cmpf .olt main_v9 main_v10
  let main_c_3 : IVec S_ 1 := constantI S_ 1 1#1
  let main_v12 : IVec S_ 1 := (fun x v => Host.reduce IntOp.andi x v reducesTo_S4x16x2048x64_S_d0_1_2_3 h_S_) main_v11 main_c_3
  let main_v13 : IVec S_ 1 := andi main_v8 main_v12
  main_v13
-- ==== Kernel.lean ====
abbrev S4x16x2048x64 : Shape := ⟨4, ![4, 16, 2048, 64]⟩
abbrev S4x16x64x2048 : Shape := ⟨4, ![4, 16, 64, 2048]⟩
abbrev S4x1x2048x2048 : Shape := ⟨4, ![4, 1, 2048, 2048]⟩
abbrev S4x16x2048x2048 : Shape := ⟨4, ![4, 16, 2048, 2048]⟩
abbrev S1x1x1024x64 : Shape := ⟨4, ![1, 1, 1024, 64]⟩
abbrev S1x1x64x2048 : Shape := ⟨4, ![1, 1, 64, 2048]⟩
abbrev S1x1x2048x64 : Shape := ⟨4, ![1, 1, 2048, 64]⟩
abbrev S1x1x1024x2048 : Shape := ⟨4, ![1, 1, 1024, 2048]⟩
abbrev S1024x64 : Shape := ⟨2, ![1024, 64]⟩
abbrev S64x2048 : Shape := ⟨2, ![64, 2048]⟩
abbrev S1024x2048 : Shape := ⟨2, ![1024, 2048]⟩
abbrev S1024 : Shape := ⟨1, ![1024]⟩
abbrev S1024x1 : Shape := ⟨2, ![1024, 1]⟩
abbrev S2048x64 : Shape := ⟨2, ![2048, 64]⟩

abbrev nBuf : Space → Nat
  | .hbm => 7
  | .vmem => 12
  | .smem => 0
  | _ => 0

abbrev bufTy : (tb : Table) → Fin (tcTables nBuf tb) → BufTy
  | .hbm, ⟨0, _⟩ => ⟨S4x16x2048x64, .f32⟩
  | .hbm, ⟨1, _⟩ => ⟨S4x16x64x2048, .f32⟩
  | .hbm, ⟨2, _⟩ => ⟨S4x16x2048x64, .f32⟩
  | .hbm, ⟨3, _⟩ => ⟨S4x1x2048x2048, .i1⟩
  | .hbm, ⟨4, _⟩ => ⟨S4x1x2048x2048, .i32⟩
  | .hbm, ⟨5, _⟩ => ⟨S4x16x2048x64, .f32⟩
  | .hbm, ⟨6, _⟩ => ⟨S4x16x2048x2048, .f32⟩
  | .local _ .vmem, ⟨0, _⟩ => ⟨S1x1x1024x64, .f32⟩
  | .local _ .vmem, ⟨1, _⟩ => ⟨S1x1x1024x64, .f32⟩
  | .local _ .vmem, ⟨2, _⟩ => ⟨S1x1x64x2048, .f32⟩
  | .local _ .vmem, ⟨3, _⟩ => ⟨S1x1x64x2048, .f32⟩
  | .local _ .vmem, ⟨4, _⟩ => ⟨S1x1x2048x64, .f32⟩
  | .local _ .vmem, ⟨5, _⟩ => ⟨S1x1x2048x64, .f32⟩
  | .local _ .vmem, ⟨6, _⟩ => ⟨S1x1x1024x2048, .i32⟩
  | .local _ .vmem, ⟨7, _⟩ => ⟨S1x1x1024x2048, .i32⟩
  | .local _ .vmem, ⟨8, _⟩ => ⟨S1x1x1024x64, .f32⟩
  | .local _ .vmem, ⟨9, _⟩ => ⟨S1x1x1024x64, .f32⟩
  | .local _ .vmem, ⟨10, _⟩ => ⟨S1x1x1024x2048, .f32⟩
  | .local _ .vmem, ⟨11, _⟩ => ⟨S1x1x1024x2048, .f32⟩
  | _, _ => ⟨S4x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 2, 16], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

abbrev stage0_0 : Fin 2 → Memref sig .tc .vmem S1x1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1x1024x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

class Facts₀ : Prop where
  natLt_1_32 : 1 < 32
  inb_S1x1x1024x64_S1x1x1024x64_0_0_0_0 : ∀ a, (![0, 0, 0, 0] : Fin 4 → Nat) a + S1x1x1024x64.size a ≤ S1x1x1024x64.size a
  h_S1x1x1024x64 : 0 < S1x1x1024x64.numel
  shapeCasts_S1x1x1024x64_S1024x64 : S1x1x1024x64.ShapeCasts S1024x64
  inb_S1x1x64x2048_S1x1x64x2048_0_0_0_0 : ∀ a, (![0, 0, 0, 0] : Fin 4 → Nat) a + S1x1x64x2048.size a ≤ S1x1x64x2048.size a
  h_S1x1x64x2048 : 0 < S1x1x64x2048.numel
  shapeCasts_S1x1x64x2048_S64x2048 : S1x1x64x2048.ShapeCasts S64x2048
  inb_S1x1x1024x2048_S1x1x1024x2048_0_0_0_0 : ∀ a, (![0, 0, 0, 0] : Fin 4 → Nat) a + S1x1x1024x2048.size a ≤ S1x1x1024x2048.size a
  h_S1x1x1024x2048 : 0 < S1x1x1024x2048.numel
  shapeCasts_S1x1x1024x2048_S1024x2048 : S1x1x1024x2048.ShapeCasts S1024x2048
  reduces_S1024x2048_S1024 : S1024x2048.Reduces [1] S1024
  shapeCasts_S1024_S1024x1 : S1024.ShapeCasts S1024x1
  broadcasts_S1024x1_S1024x2048 : S1024x1.Broadcasts S1024x2048
  shapeCasts_S1024x2048_S1x1x1024x2048 : S1024x2048.ShapeCasts S1x1x1024x2048
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  shapeCasts_S1024x64_S1x1x1024x64 : S1024x64.ShapeCasts S1x1x1024x64
  dot_S1024x64_S64x2048_S1024x2048_1_0_0_1_n_n_wf : DotDims.WF S1024x64 S64x2048 S1024x2048 [1] [0] [0] [1] [] []
  dot_S1024x2048_S2048x64_S1024x64_1_0_0_1_n_n_wf : DotDims.WF S1024x2048 S2048x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1024x64.size a ≤ S4x16x2048x64.size a
  hwx0_0 : ∀ i : grid0.Coords, EltTy.bits .f32 = 32 ∨ (Rect.block (s := S4x16x2048x64) S1x1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x64x2048.size a ≤ S4x16x64x2048.size a
  hwx0_1 : ∀ i : grid0.Coords, EltTy.bits .f32 = 32 ∨ (Rect.block (s := S4x16x64x2048) S1x1x64x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048x64.size a ≤ S4x16x2048x64.size a
  hwx0_2 : ∀ i : grid0.Coords, EltTy.bits .f32 = 32 ∨ (Rect.block (s := S4x16x2048x64) S1x1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024x2048.size a ≤ S4x1x2048x2048.size a
  hwx0_3 : ∀ i : grid0.Coords, EltTy.bits .i32 = 32 ∨ (Rect.block (s := S4x1x2048x2048) S1x1x1024x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1024x64.size a ≤ S4x16x2048x64.size a
  hwx0_4 : ∀ i : grid0.Coords, EltTy.bits .f32 = 32 ∨ (Rect.block (s := S4x16x2048x64) S1x1x1024x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1024x2048.size a ≤ S4x16x2048x2048.size a
  hwx0_5 : ∀ i : grid0.Coords, EltTy.bits .f32 = 32 ∨ (Rect.block (s := S4x16x2048x2048) S1x1x1024x2048.size (cc0_transform_5 i) (hinb0_5 i)).WholeWords (EltTy.packing .f32)

variable [Facts₀]

def dot_S1024x64_S64x2048_S1024x2048_1_0_0_1_n_n : DotDims S1024x64 S64x2048 S1024x2048 where
  lhsContracting := [1]
  rhsContracting := [0]
  lhsNonContracting := [0]
  rhsNonContracting := [1]
  lhsBatch := []
  rhsBatch := []
  wf := dot_S1024x64_S64x2048_S1024x2048_1_0_0_1_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf

abbrev win0_0 : Pipeline.Window sig grid0 :=
  Pipeline.Window.ofSpec (Memref.whole main_arg0) S1x1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x64x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1x1024x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S1x1x1024x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S1x1x1024x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x16x2048x64 : Shape := ⟨4, ![4, 16, 2048, 64]⟩
abbrev S4x16x64x2048 : Shape := ⟨4, ![4, 16, 64, 2048]⟩
abbrev S4x1x2048x2048 : Shape := ⟨4, ![4, 1, 2048, 2048]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩

abbrev nBuf : Space → Nat
  | .hbm => 27
  | .vmem => 0
  | .smem => 0
  | _ => 0

abbrev bufTy : (tb : Table) → Fin (tcTables nBuf tb) → BufTy
  | .hbm, ⟨0, _⟩ => ⟨S4x16x2048x64, .f32⟩
  | .hbm, ⟨1, _⟩ => ⟨S4x16x64x2048, .f32⟩
  | .hbm, ⟨2, _⟩ => ⟨S4x16x2048x64, .f32⟩
  | .hbm, ⟨3, _⟩ => ⟨S4x1x2048x2048, .i1⟩
  | .hbm, ⟨4, _⟩ => ⟨S4x16x2048x2048, .f32⟩
  | .hbm, ⟨5, _⟩ => ⟨S_, .f32⟩
  | .hbm, ⟨6, _⟩ => ⟨S4x16x2048x2048, .f32⟩
  | .hbm, ⟨7, _⟩ => ⟨S4x16x2048x2048, .f32⟩
  | .hbm, ⟨8, _⟩ => ⟨S_, .f32⟩
  | .hbm, ⟨9, _⟩ => ⟨S4x16x2048x2048, .i1⟩
  | .hbm, ⟨10, _⟩ => ⟨S4x16x2048x2048, .f32⟩
  | .hbm, ⟨11, _⟩ => ⟨S4x16x2048x2048, .f32⟩
  | .hbm, ⟨12, _⟩ => ⟨S_, .f32⟩
  | .hbm, ⟨13, _⟩ => ⟨S4x16x2048, .f32⟩
  | .hbm, ⟨14, _⟩ => ⟨S_, .f32⟩
  | .hbm, ⟨15, _⟩ => ⟨S4x16x2048, .f32⟩
  | .hbm, ⟨16, _⟩ => ⟨S4x16x2048, .f32⟩
  | .hbm, ⟨17, _⟩ => ⟨S4x16x2048x1, .f32⟩
  | .hbm, ⟨18, _⟩ => ⟨S4x16x2048x2048, .f32⟩
  | .hbm, ⟨19, _⟩ => ⟨S4x16x2048x2048, .f32⟩
  | .hbm, ⟨20, _⟩ => ⟨S4x16x2048x2048, .f32⟩
  | .hbm, ⟨21, _⟩ => ⟨S_, .f32⟩
  | .hbm, ⟨22, _⟩ => ⟨S4x16x2048, .f32⟩
  | .hbm, ⟨23, _⟩ => ⟨S4x16x2048x1, .f32⟩
  | .hbm, ⟨24, _⟩ => ⟨S4x16x2048x2048, .f32⟩
  | .hbm, ⟨25, _⟩ => ⟨S4x16x2048x2048, .f32⟩
  | .hbm, ⟨26, _⟩ => ⟨S4x16x2048x64, .f32⟩
  | _, _ => ⟨S4x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_cst_2 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩

abbrev nD : Nat := 1
abbrev τ : Topo := Topo.v7x

variable {F : FTy → Type} [FloatOps F]

class Facts₀ : Prop where
  bcast_S_S4x16x2048x2048 : S_.BroadcastsInDim S4x16x2048x2048 (![] : Fin 0 → Fin S4x16x2048x2048.rank)
  bcast_S4x1x2048x2048_S4x16x2048x2048_0_1_2_3 : S4x1x2048x2048.BroadcastsInDim S4x16x2048x2048 (![0, 1, 2, 3] : Fin 4 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  dot_S4x16x2048x64_S4x16x64x2048_S4x16x2048x2048_3_2_2_3_01_01_wf : DotDims.WF S4x16x2048x64 S4x16x64x2048 S4x16x2048x2048 [3] [2] [2] [3] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x16x2048x64_S4x16x64x2048_S4x16x2048x2048_3_2_2_3_01_01 : DotDims S4x16x2048x64 S4x16x64x2048 S4x16x2048x2048 where
  lhsContracting := [3]
  rhsContracting := [2]
  lhsNonContracting := [2]
  rhsNonContracting := [3]
  lhsBatch := [0, 1]
  rhsBatch := [0, 1]
  wf := dot_S4x16x2048x64_S4x16x64x2048_S4x16x2048x2048_3_2_2_3_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.Attention.lean ====
/- Masked softmax attention as functions of the argument arrays, index by index, on the extended reals.

   For a batch b, a head h and a query row i, the score against key column j is
     s(j) = -10⁹ where mask(b, 0, i, j) is set, and (Σ_d q(b,h,i,d) · k(b,h,d,j)) · (1/8) elsewhere;
   the row's attention weights are  exp(s(j) − M) / Σ_j' exp(s(j') − M)  with M = max(-∞, max_j s(j)),
   and the context is  Σ_j attn(b,h,i,j) · v(b,h,j,d).
   The three constants stay the bit patterns the programs write; nothing here depends on what they denote. -/
import Idealize.ShloMosaic.PureOps.Ideal
import Idealize.ShloMosaic.PureOps.Ideal.Laws
import Idealize.ShloMosaic.Lib.ValueIdx

noncomputable section

namespace Cert.Attention

open Idealize.ShloMosaic Idealize.ShloMosaic.ValueIdx

/-- The scale 1/8 = 1/√64, the fill for masked positions, and the start of the row maximum. -/
abbrev scale : EReal := Ideal.ofBits .f32 0x3E000000#32
abbrev fill : EReal := Ideal.ofBits .f32 0xCE6E6B28#32
abbrev negInf : EReal := Ideal.ofBits .f32 0xFF800000#32

/-- One score: the scaled inner product of a query row and a key column, or the fill where the mask bit is set. -/
def score (qrow kcol : Fin 64 → EReal) (msk : BitVec 1) : EReal :=
  Scalar.select msk fill ((∑ d : Fin 64, qrow d * kcol d) * scale)

/-- The maximum of a row of scores, taken from -∞. -/
def rowMax (s : Fin 2048 → EReal) : EReal := (Finset.univ : Finset (Fin 2048)).fold max negInf s

/-- The exponential of a score shifted by its row's maximum. -/
def shiftedExp (s : Fin 2048 → EReal) (j : Fin 2048) : EReal := Ideal.exp (s j - rowMax s)

/-- The softmax of a row of scores at column j. -/
def softmaxRow (s : Fin 2048 → EReal) (j : Fin 2048) : EReal :=
  Ideal.div (shiftedExp s j) (∑ j' : Fin 2048, shiftedExp s j')

/-- Taking the maximum with -∞ once more changes nothing: the fold already starts there. -/
theorem max_negInf_rowMax (s : Fin 2048 → EReal) : max negInf (rowMax s) = rowMax s :=
  max_eq_right ((Finset.le_fold_max negInf).mpr (Or.inl le_rfl))

variable (q : (⟨4, ![4, 16, 2048, 64]⟩ : Shape).Idx → EReal) (k : (⟨4, ![4, 16, 64, 2048]⟩ : Shape).Idx → EReal)
  (v : (⟨4, ![4, 16, 2048, 64]⟩ : Shape).Idx → EReal) (mask : (⟨4, ![4, 1, 2048, 2048]⟩ : Shape).Idx → BitVec 1)

/-- The scores of query row (b, h, i) against every key column. -/
def scoresAt (b : Fin 4) (h : Fin 16) (i : Fin 2048) : Fin 2048 → EReal := fun j =>
  score (fun d => q (ix4 b h i d)) (fun d => k (ix4 b h d j)) (mask (ix4 b (0 : Fin 1) i j))

/-- The attention weight at (b, h, i, j). -/
def attnAt (b : Fin 4) (h : Fin 16) (i : Fin 2048) (j : Fin 2048) : EReal := softmaxRow (scoresAt q k mask b h i) j

/-- The context at (b, h, i, d): the row's weights against column d of v. -/
def ctxAt (b : Fin 4) (h : Fin 16) (i : Fin 2048) (d : Fin 64) : EReal :=
  ∑ j : Fin 2048, attnAt q k mask b h i j * v (ix4 b h j d)

/-- The two result arrays. -/
def attnArr : (⟨4, ![4, 16, 2048, 2048]⟩ : Shape).Idx → EReal := fun x => attnAt q k mask (x 0) (x 1) (x 2) (x 3)
def ctxArr : (⟨4, ![4, 16, 2048, 64]⟩ : Shape).Idx → EReal := fun x => ctxAt q k v mask (x 0) (x 1) (x 2) (x 3)

theorem attnArr_ix4 (b : Fin 4) (h : Fin 16) (i : Fin 2048) (j : Fin 2048) :
    attnArr q k mask (ix4 b h i j) = attnAt q k mask b h i j := rfl
theorem ctxArr_ix4 (b : Fin 4) (h : Fin 16) (i : Fin 2048) (d : Fin 64) :
    ctxArr q k v mask (ix4 b h i d) = ctxAt q k v mask b h i d := rfl

end Cert.Attention

end
-- ==== Proof.ReferenceAttention.lean ====
/- The reference computes the specification.

   Its stages are read one at a time at an index (b, h, i, j): the batched product of q and k times 1/8 with the masked
   positions filled is the score; the maximum over the last axis, taken once more against -∞, is the row maximum;
   the exponential of the difference, the sum over the last axis from 0, and their quotient are the softmax row;
   the batched product with v is the context. -/
import proofs.«143793_j82325933130226_2_alg».proof.Proof.Gen.ReferenceIdeal.Read
import proofs.«143793_j82325933130226_2_alg».proof.Proof.Attention
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.Read Cert.Attention
open Idealize.ShloMosaic Idealize.ShloMosaic.ValueIdx

variable (x0 : (⟨S4x16x2048x64, .f32⟩ : BufTy).Contents (Elt Ideal)) (x1 : (⟨S4x16x64x2048, .f32⟩ : BufTy).Contents (Elt Ideal))
  (x2 : (⟨S4x16x2048x64, .f32⟩ : BufTy).Contents (Elt Ideal)) (x3 : (⟨S4x1x2048x2048, .i1⟩ : BufTy).Contents (Elt Ideal))

/-! ## Where each stage reads its operands -/

theorem mask_index (b : Fin 4) (h : Fin 16) (i j : Fin 2048) : idx_main_call0_v0 (ix4 b h i j) = ix4 b (0 : Fin 1) i j :=
  funext fun a => Fin.ext (by match a with | ⟨0, _⟩ => rfl | ⟨1, _⟩ => rfl | ⟨2, _⟩ => rfl | ⟨3, _⟩ => rfl)

theorem q_index (b : Fin 4) (h : Fin 16) (i j : Fin 2048) (d : Fin 64) : lidx_main_v0 (ix4 b h i j) d = ix4 b h i d :=
  funext fun a => Fin.ext (by match a with | ⟨0, _⟩ => rfl | ⟨1, _⟩ => rfl | ⟨2, _⟩ => rfl | ⟨3, _⟩ => rfl)

theorem k_index (b : Fin 4) (h : Fin 16) (i j : Fin 2048) (d : Fin 64) : ridx_main_v0 (ix4 b h i j) d = ix4 b h d j :=
  funext fun a => Fin.ext (by match a with | ⟨0, _⟩ => rfl | ⟨1, _⟩ => rfl | ⟨2, _⟩ => rfl | ⟨3, _⟩ => rfl)

theorem row_index_max (b : Fin 4) (h : Fin 16) (i j : Fin 2048) : idx_main_v7 (idx_main_v8 (ix4 b h i j)) = ix3 b h i :=
  funext fun a => Fin.ext (by match a with | ⟨0, _⟩ => rfl | ⟨1, _⟩ => rfl | ⟨2, _⟩ => rfl)

theorem row_index_sum (b : Fin 4) (h : Fin 16) (i j : Fin 2048) : idx_main_v12 (idx_main_v13 (ix4 b h i j)) = ix3 b h i :=
  funext fun a => Fin.ext (by match a with | ⟨0, _⟩ => rfl | ⟨1, _⟩ => rfl | ⟨2, _⟩ => rfl)

theorem sum_index (b : Fin 4) (h : Fin 16) (i : Fin 2048) (j : Fin 2048) : idx_main_v11 (ix3 b h i) j = ix4 b h i j :=
  funext fun a => Fin.ext (by match a with | ⟨0, _⟩ => rfl | ⟨1, _⟩ => rfl | ⟨2, _⟩ => rfl | ⟨3, _⟩ => rfl)

theorem attn_index (b : Fin 4) (h : Fin 16) (i : Fin 2048) (d : Fin 64) (j : Fin 2048) : lidx_main_v15 (ix4 b h i d) j = ix4 b h i j :=
  funext fun a => Fin.ext (by match a with | ⟨0, _⟩ => rfl | ⟨1, _⟩ => rfl | ⟨2, _⟩ => rfl | ⟨3, _⟩ => rfl)

theorem v_index (b : Fin 4) (h : Fin 16) (i : Fin 2048) (d : Fin 64) (j : Fin 2048) : ridx_main_v15 (ix4 b h i d) j = ix4 b h j d :=
  funext fun a => Fin.ext (by match a with | ⟨0, _⟩ => rfl | ⟨1, _⟩ => rfl | ⟨2, _⟩ => rfl | ⟨3, _⟩ => rfl)

/-! ## The stages -/

/-- The masked, scaled product of q and k at (b, h, i, j) is the score. -/
theorem score_eq (b : Fin 4) (h : Fin 16) (i j : Fin 2048) :
    val_main_v3 (F := Ideal) x0 x1 x3 (ix4 b h i j) = scoresAt x0 x1 x3 b h i j := by
  rw [val_main_v3_apply, val_main_call0_v0_apply, val_main_call0_v1_apply, val_main_cst_0_apply, val_main_v2_apply,
    val_main_v0_apply, val_main_v1_apply, val_main_cst_apply, mask_index]
  simp only [q_index, k_index]
  rfl

/-- The maximum over the last axis, taken once more against -∞, is the row maximum of the scores. -/
theorem rowMax_eq (b : Fin 4) (h : Fin 16) (i : Fin 2048) :
    val_main_v6 (F := Ideal) x0 x1 x3 (ix3 b h i) = rowMax (scoresAt x0 x1 x3 b h i) := by
  have hred : S4x16x2048x2048.Reduces [3] S4x16x2048 := by decide
  have e : val_main_v4 (F := Ideal) x0 x1 x3 (ix3 b h i) = rowMax (scoresAt x0 x1 x3 b h i) := by
    unfold val_main_v4
    refine (Host.reduce_eq_fold_single FloatOps.maximumf _ _ reducesTo_S4x16x2048x2048_S4x16x2048_d3 hred h_S_ (ix3 b h i)).trans ?_
    have hf : (val_main_v3 (F := Ideal) x0 x1 x3 ∘ hred.lift (ix3 b h i)) = scoresAt x0 x1 x3 b h i :=
      funext fun (j : Fin 2048) => by
        show val_main_v3 (F := Ideal) x0 x1 x3 (hred.lift (ix3 b h i) j) = _
        rw [show hred.lift (ix3 b h i) j = ix4 b h i j from
          funext fun a => Fin.ext (by match a with | ⟨0, _⟩ => rfl | ⟨1, _⟩ => rfl | ⟨2, _⟩ => rfl | ⟨3, _⟩ => rfl)]
        exact score_eq x0 x1 x3 b h i j
    rw [hf]
    rfl
  rw [val_main_v6_apply, val_main_v5_apply, val_main_cst_2_apply, e]
  exact max_negInf_rowMax _

/-- The exponential of a score less its row's maximum. -/
theorem exp_eq (b : Fin 4) (h : Fin 16) (i j : Fin 2048) :
    val_main_v10 (F := Ideal) x0 x1 x3 (ix4 b h i j) = shiftedExp (scoresAt x0 x1 x3 b h i) j := by
  rw [val_main_v10_apply, val_main_v9_apply, val_main_v8_apply, val_main_v7_apply, score_eq, row_index_max, rowMax_eq]
  rfl

/-- The quotient by the row's sum is the attention weight. -/
theorem attn_eq (b : Fin 4) (h : Fin 16) (i j : Fin 2048) :
    val_main_v14 (F := Ideal) x0 x1 x3 (ix4 b h i j) = attnAt x0 x1 x3 b h i j := by
  have hs : ∀ j' : Fin 2048, val_main_v10 (F := Ideal) x0 x1 x3 (idx_main_v11 (ix3 b h i) j') = shiftedExp (scoresAt x0 x1 x3 b h i) j' :=
    fun j' => by rw [sum_index]; exact exp_eq x0 x1 x3 b h i j'
  rw [val_main_v14_apply, exp_eq, val_main_v13_apply, val_main_v12_apply, row_index_sum, val_main_v11_apply, val_main_cst_3_apply]
  simp only [hs]
  rw [Ideal.hostDivf_def, Ideal.ofBits_def, Ideal.ofBits_zero_f32, zero_add]
  rfl

/-- The batched product of the weights with v is the context. -/
theorem ctx_eq (b : Fin 4) (h : Fin 16) (i : Fin 2048) (d : Fin 64) :
    val_main_v15 (F := Ideal) x0 x1 x2 x3 (ix4 b h i d) = ctxAt x0 x1 x2 x3 b h i d := by
  rw [val_main_v15_apply]
  unfold ctxAt
  refine Finset.sum_congr rfl fun j _ => ?_
  rw [attn_index, v_index, attn_eq]

/-! ## The two results as whole arrays -/

theorem attn_result : val_main_v14 (F := Ideal) x0 x1 x3 = attnArr x0 x1 x3 := funext fun x => by
  obtain ⟨b, h, i, j, rfl⟩ : ∃ (b : Fin 4) (h : Fin 16) (i j : Fin 2048), x = ix4 b h i j := ⟨x 0, x 1, x 2, x 3, eq_ix4 x⟩
  exact (attn_eq x0 x1 x3 b h i j).trans (attnArr_ix4 x0 x1 x3 b h i j).symm

theorem ctx_result : val_main_v15 (F := Ideal) x0 x1 x2 x3 = ctxArr x0 x1 x2 x3 := funext fun x => by
  obtain ⟨b, h, i, d, rfl⟩ : ∃ (b : Fin 4) (h : Fin 16) (i : Fin 2048) (d : Fin 64), x = ix4 b h i d := ⟨x 0, x 1, x 2, x 3, eq_ix4 x⟩
  exact (ctx_eq x0 x1 x2 x3 b h i d).trans (ctxArr_ix4 x0 x1 x2 x3 b h i d).symm

end Cert.ReferenceIdeal.RefValue

end
-- ==== Proof.LibColumn.lean ====
/- A per-row statistic laid out as a column and spread back over the row.

   A kernel that reduces each row of an [a, b] block to one number (a maximum, a sum) keeps the result as a
   vector of length a, re-lays it as an [a, 1] column and broadcasts the column over the b positions of each
   row.  Read at (p, c) the column and its broadcast are the statistic of row p. -/
import Idealize.ShloMosaic.Lib.Pipeline.Value
import Idealize.ShloMosaic.Lib.ValueIdx

namespace Cert.LibColumn

open Idealize.ShloMosaic Idealize.ShloMosaic.ValueIdx

variable {α : Type}

/-- A vector of length a re-laid as an [a, 1] column reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An [a, 1] column broadcast to [a, b] reads, at (p, c), the column at row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Both steps at once: the statistic of row p, at every position of the row. -/
theorem broadcastTo_shapeCast_column_apply {a b : ℕ} (x : (⟨1, ![a]⟩ : Shape).Idx → α)
    (h1 : (⟨1, ![a]⟩ : Shape).ShapeCasts ⟨2, ![a, 1]⟩) (h2 : (⟨2, ![a, 1]⟩ : Shape).Broadcasts ⟨2, ![a, b]⟩) (p : Fin a) (c : Fin b) :
    broadcastTo ⟨2, ![a, b]⟩ (shapeCast ⟨2, ![a, 1]⟩ x h1) h2 (ix2 p c) = x (ix1 p) :=
  (broadcastTo_a1_ab_apply _ h2 p c).trans (shapeCast_a_a1_apply x h1 p 0)

end Cert.LibColumn
-- ==== Proof.LibUnitAxes.lean ====
/- Two leading unit axes dropped from, or added to, a matrix.

   A block of a rank-4 array taken one batch entry and one head at a time has shape [1, 1, a, b]; the body works on
   the [a, b] matrix and stores its result back as [1, 1, a, b].  Read at an index the two casts keep the matrix
   coordinates and put 0 on (or ignore) the unit axes. -/
import Idealize.ShloMosaic.Lib.Pipeline.Value
import Idealize.ShloMosaic.Lib.ValueIdx

namespace Cert.LibUnitAxes

open Idealize.ShloMosaic Idealize.ShloMosaic.ValueIdx

variable {α : Type}

/-- A [1, 1, a, b] array cast to [a, b] reads, at (i, j), the operand at (0, 0, i, j). -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An [a, b] array cast to [1, 1, a, b] reads, at (u, u', i, j), the operand at (i, j). -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    rw [hu, hu']
    simp only [Nat.zero_mul, Nat.zero_add])

end Cert.LibUnitAxes
-- ==== Proof.BlockAttention.lean ====
/- What the kernel body computes from one block of each operand.

   The body takes 1024 query rows of one head (q block [1,1,1024,64]), that head's keys (k block [1,1,64,2048]) and
   values (v block [1,1,2048,64]) and the rows' mask words (i32 block [1,1,1024,2048], non-zero = masked).  For row r of
   the block its scores are the scaled inner products of the row with the key columns, filled where masked; the
   stored attention block is the softmax of each row, and the stored context block is that row against the columns of v.
   Read at an index, each of the body's operations is the textbook one: a matrix product accumulated from zero is the sum
   over the shared axis, a row reduction is the fold or the sum over the row, and a per-row number laid as a column and
   spread over the row is that number. -/
import proofs.«143793_j82325933130226_2_alg».proof.Proof.Gen.KernelIdeal.Skeleton
import proofs.«143793_j82325933130226_2_alg».proof.Proof.Attention
import proofs.«143793_j82325933130226_2_alg».proof.Proof.LibColumn
import proofs.«143793_j82325933130226_2_alg».proof.Proof.LibUnitAxes
import Idealize.ShloMosaic.PureOps.Ideal.Laws
import Idealize.ShloMosaic.Lib.ValueIdx

noncomputable section

namespace Cert.KernelIdeal.BlockValue

open Cert.KernelIdeal Cert.KernelIdeal.Gen Cert.Attention Cert.LibColumn Cert.LibUnitAxes
open Idealize.ShloMosaic Idealize.ShloMosaic.ValueIdx

/-! ## The two matrix products at an index -/

theorem qk_lhs_0 (i : S1024x2048.Idx) (c : dot_S1024x64_S64x2048_S1024x2048_1_0_0_1_n_n.contr.Idx) : (dot_S1024x64_S64x2048_S1024x2048_1_0_0_1_n_n.lhsIdx i c 0).val = (i 0).val := by
  unfold DotDims.lhsIdx
  rw [dif_neg (show ¬(0 : Fin S1024x64.rank) ∈ dot_S1024x64_S64x2048_S1024x2048_1_0_0_1_n_n.lhsBatch by decide), dif_pos (show (0 : Fin S1024x64.rank) ∈ dot_S1024x64_S64x2048_S1024x2048_1_0_0_1_n_n.lhsNonContracting by decide)]
  rfl
theorem qk_lhs_1 (i : S1024x2048.Idx) (c : dot_S1024x64_S64x2048_S1024x2048_1_0_0_1_n_n.contr.Idx) : (dot_S1024x64_S64x2048_S1024x2048_1_0_0_1_n_n.lhsIdx i c 1).val = (c ⟨0, by decide⟩).val :=
  dot_S1024x64_S64x2048_S1024x2048_1_0_0_1_n_n.lhsIdx_val_of_single rfl i c
theorem qk_rhs_0 (i : S1024x2048.Idx) (c : dot_S1024x64_S64x2048_S1024x2048_1_0_0_1_n_n.contr.Idx) : (dot_S1024x64_S64x2048_S1024x2048_1_0_0_1_n_n.rhsIdx i c 0).val = (c ⟨0, by decide⟩).val :=
  dot_S1024x64_S64x2048_S1024x2048_1_0_0_1_n_n.rhsIdx_val_of_single rfl i c
theorem qk_rhs_1 (i : S1024x2048.Idx) (c : dot_S1024x64_S64x2048_S1024x2048_1_0_0_1_n_n.contr.Idx) : (dot_S1024x64_S64x2048_S1024x2048_1_0_0_1_n_n.rhsIdx i c 1).val = (i 1).val := by
  unfold DotDims.rhsIdx
  rw [dif_neg (show ¬(1 : Fin S64x2048.rank) ∈ dot_S1024x64_S64x2048_S1024x2048_1_0_0_1_n_n.rhsBatch by decide), dif_pos (show (1 : Fin S64x2048.rank) ∈ dot_S1024x64_S64x2048_S1024x2048_1_0_0_1_n_n.rhsNonContracting by decide)]
  rfl

/-- The [1024, 64] × [64, 2048] product accumulated from zero, at (r, j): the sum over the 64 shared coordinates. -/
theorem qk_apply (L : FVec Ideal S1024x64 .f32) (R : FVec Ideal S64x2048 .f32) (r : Fin 1024) (j : Fin 2048) :
    matmul dot_S1024x64_S64x2048_S1024x2048_1_0_0_1_n_n none L R (constant S1024x2048 .f32 0x00000000#32) (ix2 r j) = ∑ d : Fin 64, L (ix2 r d) * R (ix2 d j) := by
  refine (Ideal.matmul_constant_zero_apply dot_S1024x64_S64x2048_S1024x2048_1_0_0_1_n_n none L R (ix2 r j)).trans ?_
  rw [← Equiv.sum_comp (contrEquiv1 dot_S1024x64_S64x2048_S1024x2048_1_0_0_1_n_n 64 rfl rfl).symm]
  refine Finset.sum_congr rfl fun d _ => ?_
  have hd := contrEquiv1_symm_val dot_S1024x64_S64x2048_S1024x2048_1_0_0_1_n_n 64 rfl rfl d
  have el : dot_S1024x64_S64x2048_S1024x2048_1_0_0_1_n_n.lhsIdx (ix2 r j) ((contrEquiv1 dot_S1024x64_S64x2048_S1024x2048_1_0_0_1_n_n 64 rfl rfl).symm d) = ix2 r d := funext fun a => Fin.ext (by
    match a with
    | ⟨0, _⟩ => exact qk_lhs_0 _ _
    | ⟨1, _⟩ => exact (qk_lhs_1 _ _).trans hd)
  have er : dot_S1024x64_S64x2048_S1024x2048_1_0_0_1_n_n.rhsIdx (ix2 r j) ((contrEquiv1 dot_S1024x64_S64x2048_S1024x2048_1_0_0_1_n_n 64 rfl rfl).symm d) = ix2 d j := funext fun a => Fin.ext (by
    match a with
    | ⟨0, _⟩ => exact (qk_rhs_0 _ _).trans hd
    | ⟨1, _⟩ => exact qk_rhs_1 _ _)
  rw [el, er]

theorem av_lhs_0 (i : S1024x64.Idx) (c : dot_S1024x2048_S2048x64_S1024x64_1_0_0_1_n_n.contr.Idx) : (dot_S1024x2048_S2048x64_S1024x64_1_0_0_1_n_n.lhsIdx i c 0).val = (i 0).val := by
  unfold DotDims.lhsIdx
  rw [dif_neg (show ¬(0 : Fin S1024x2048.rank) ∈ dot_S1024x2048_S2048x64_S1024x64_1_0_0_1_n_n.lhsBatch by decide), dif_pos (show (0 : Fin S1024x2048.rank) ∈ dot_S1024x2048_S2048x64_S1024x64_1_0_0_1_n_n.lhsNonContracting by decide)]
  rfl
theorem av_lhs_1 (i : S1024x64.Idx) (c : dot_S1024x2048_S2048x64_S1024x64_1_0_0_1_n_n.contr.Idx) : (dot_S1024x2048_S2048x64_S1024x64_1_0_0_1_n_n.lhsIdx i c 1).val = (c ⟨0, by decide⟩).val :=
  dot_S1024x2048_S2048x64_S1024x64_1_0_0_1_n_n.lhsIdx_val_of_single rfl i c
theorem av_rhs_0 (i : S1024x64.Idx) (c : dot_S1024x2048_S2048x64_S1024x64_1_0_0_1_n_n.contr.Idx) : (dot_S1024x2048_S2048x64_S1024x64_1_0_0_1_n_n.rhsIdx i c 0).val = (c ⟨0, by decide⟩).val :=
  dot_S1024x2048_S2048x64_S1024x64_1_0_0_1_n_n.rhsIdx_val_of_single rfl i c
theorem av_rhs_1 (i : S1024x64.Idx) (c : dot_S1024x2048_S2048x64_S1024x64_1_0_0_1_n_n.contr.Idx) : (dot_S1024x2048_S2048x64_S1024x64_1_0_0_1_n_n.rhsIdx i c 1).val = (i 1).val := by
  unfold DotDims.rhsIdx
  rw [dif_neg (show ¬(1 : Fin S2048x64.rank) ∈ dot_S1024x2048_S2048x64_S1024x64_1_0_0_1_n_n.rhsBatch by decide), dif_pos (show (1 : Fin S2048x64.rank) ∈ dot_S1024x2048_S2048x64_S1024x64_1_0_0_1_n_n.rhsNonContracting by decide)]
  rfl

/-- The [1024, 2048] × [2048, 64] product accumulated from zero, at (r, d): the sum over the 2048 shared coordinates. -/
theorem av_apply (L : FVec Ideal S1024x2048 .f32) (R : FVec Ideal S2048x64 .f32) (r : Fin 1024) (d : Fin 64) :
    matmul dot_S1024x2048_S2048x64_S1024x64_1_0_0_1_n_n none L R (constant S1024x64 .f32 0x00000000#32) (ix2 r d) = ∑ j : Fin 2048, L (ix2 r j) * R (ix2 j d) := by
  refine (Ideal.matmul_constant_zero_apply dot_S1024x2048_S2048x64_S1024x64_1_0_0_1_n_n none L R (ix2 r d)).trans ?_
  rw [← Equiv.sum_comp (contrEquiv1 dot_S1024x2048_S2048x64_S1024x64_1_0_0_1_n_n 2048 rfl rfl).symm]
  refine Finset.sum_congr rfl fun j _ => ?_
  have hj := contrEquiv1_symm_val dot_S1024x2048_S2048x64_S1024x64_1_0_0_1_n_n 2048 rfl rfl j
  have el : dot_S1024x2048_S2048x64_S1024x64_1_0_0_1_n_n.lhsIdx (ix2 r d) ((contrEquiv1 dot_S1024x2048_S2048x64_S1024x64_1_0_0_1_n_n 2048 rfl rfl).symm j) = ix2 r j := funext fun a => Fin.ext (by
    match a with
    | ⟨0, _⟩ => exact av_lhs_0 _ _
    | ⟨1, _⟩ => exact (av_lhs_1 _ _).trans hj)
  have er : dot_S1024x2048_S2048x64_S1024x64_1_0_0_1_n_n.rhsIdx (ix2 r d) ((contrEquiv1 dot_S1024x2048_S2048x64_S1024x64_1_0_0_1_n_n 2048 rfl rfl).symm j) = ix2 j d := funext fun a => Fin.ext (by
    match a with
    | ⟨0, _⟩ => exact (av_rhs_0 _ _).trans hj
    | ⟨1, _⟩ => exact av_rhs_1 _ _)
  rw [el, er]

/-! ## The body's steps, named -/

section Steps

variable {F : FTy → Type} [FloatOps F]
variable (P0 : Vec F S1x1x1024x64 .f32) (P1 : Vec F S1x1x64x2048 .f32) (P2 : Vec F S1x1x1024x2048 .i32)
  (P3 : Vec F S1x1x2048x64 .f32)

/-- The block's scores: the product of the q and k blocks scaled by 1/8, filled where the mask word is not zero. -/
def bodyScores : FVec F S1024x2048 .f32 :=
  select (shapeCast S1024x2048 (cmpi .ne P2 (constantI S1x1x1024x2048 32 0#32)) shapeCasts_S1x1x1024x2048_S1024x2048)
    (broadcast S1024x2048 (Scalar.ofBits .f32 0xCE6E6B28#32 : F .f32))
    (mulf (matmul dot_S1024x64_S64x2048_S1024x2048_1_0_0_1_n_n none (shapeCast S1024x64 P0 shapeCasts_S1x1x1024x64_S1024x64 : FVec F S1024x64 .f32)
        (shapeCast S64x2048 P1 shapeCasts_S1x1x64x2048_S64x2048 : FVec F S64x2048 .f32) (constant S1024x2048 .f32 0x00000000#32))
      (broadcast S1024x2048 (Scalar.ofBits .f32 0x3E000000#32 : F .f32)))

/-- Each row's maximum, from -∞. -/
def rowMaxima (s : FVec F S1024x2048 .f32) : FVec F S1024 .f32 :=
  multiReduction .maximumf [1] S1024 s 0xFF800000#32 reduces_S1024x2048_S1024 (.inl rfl) rfl

/-- A number per row, laid as a column and spread over the row. -/
def column (x : FVec F S1024 .f32) : FVec F S1024x2048 .f32 :=
  broadcastTo S1024x2048 (shapeCast S1024x1 x shapeCasts_S1024_S1024x1) broadcasts_S1024x1_S1024x2048

/-- The exponentials of the scores less their row's maximum. -/
def shifted (s : FVec F S1024x2048 .f32) : FVec F S1024x2048 .f32 := exp (subf s (column (rowMaxima s)))

/-- Each row's sum, from 0. -/
def rowSums (e : FVec F S1024x2048 .f32) : FVec F S1024 .f32 :=
  multiReduction .add [1] S1024 e 0x00000000#32 reduces_S1024x2048_S1024 (.inl rfl) rfl

/-- The exponentials divided by their row's sum. -/
def normalized (s : FVec F S1024x2048 .f32) : FVec F S1024x2048 .f32 := divf (shifted s) (column (rowSums (shifted s)))

/-- The attention payload is these steps in order; the context payload is its product with the v block. -/
theorem attn_steps : k0_pay1 P0 P1 P2 = normalized (bodyScores P0 P1 P2) := rfl
theorem ctx_steps : k0_pay3 P0 P1 P2 P3 = shapeCast S1x1x1024x64 (matmul dot_S1024x2048_S2048x64_S1024x64_1_0_0_1_n_n none (k0_pay1 P0 P1 P2)
    (shapeCast S2048x64 P3 shapeCasts_S1x1x2048x64_S2048x64 : FVec F S2048x64 .f32) (constant S1024x64 .f32 0x00000000#32)) shapeCasts_S1024x64_S1x1x1024x64 := rfl

end Steps

variable (P0 : Vec Ideal S1x1x1024x64 .f32) (P1 : Vec Ideal S1x1x64x2048 .f32) (P2 : Vec Ideal S1x1x1024x2048 .i32)
  (P3 : Vec Ideal S1x1x2048x64 .f32)

/-! ## Each step at an index -/

/-- The scores of row r of the block, as the specification writes a score. -/
def blockScores (r : Fin 1024) : Fin 2048 → EReal := fun j =>
  score (fun d => P0 (ix4 (0 : Fin 1) (0 : Fin 1) r d)) (fun d => P1 (ix4 (0 : Fin 1) (0 : Fin 1) d j))
    (IntOp.cmpi .ne (P2 (ix4 (0 : Fin 1) (0 : Fin 1) r j)) 0#32)

theorem bodyScores_apply (r : Fin 1024) (j : Fin 2048) : bodyScores P0 P1 P2 (ix2 r j) = blockScores P0 P1 P2 r j := by
  unfold bodyScores blockScores score
  rw [select_apply, mulf_apply, qk_apply, shapeCast_11ab_ab_apply]
  simp only [shapeCast_11ab_ab_apply]
  rfl

theorem rowMaxima_apply (s : FVec Ideal S1024x2048 .f32) (r : Fin 1024) :
    rowMaxima s (ix1 r) = rowMax (fun j => s (ix2 r j)) := by
  unfold rowMaxima
  refine (Ideal.multiReduction_maximumf_single s 0xFF800000#32 reduces_S1024x2048_S1024 (.inl rfl) rfl (ix1 r)).trans ?_
  have hf : (s ∘ reduces_S1024x2048_S1024.lift (ix1 r)) = fun j : Fin 2048 => s (ix2 r j) := funext fun (j : Fin 2048) =>
    congrArg s (funext fun a => Fin.ext (by match a with | ⟨0, _⟩ => rfl | ⟨1, _⟩ => rfl))
  rw [hf]
  rfl

theorem column_apply (x : FVec Ideal S1024 .f32) (r : Fin 1024) (j : Fin 2048) : column x (ix2 r j) = x (ix1 r) :=
  broadcastTo_shapeCast_column_apply x _ _ r j

theorem shifted_apply (s : FVec Ideal S1024x2048 .f32) (r : Fin 1024) (j : Fin 2048) :
    shifted s (ix2 r j) = shiftedExp (fun j' => s (ix2 r j')) j := by
  show Ideal.exp (s (ix2 r j) - column (rowMaxima s) (ix2 r j)) = _
  rw [column_apply, rowMaxima_apply]
  rfl

theorem rowSums_apply (e : FVec Ideal S1024x2048 .f32) (r : Fin 1024) : rowSums e (ix1 r) = ∑ j : Fin 2048, e (ix2 r j) := by
  unfold rowSums
  refine (Ideal.multiReduction_add_single e 0x00000000#32 reduces_S1024x2048_S1024 (.inl rfl) rfl (ix1 r)).trans ?_
  exact Finset.sum_congr rfl fun (j : Fin 2048) _ =>
    congrArg e (funext fun a => Fin.ext (by match a with | ⟨0, _⟩ => rfl | ⟨1, _⟩ => rfl))

theorem normalized_apply (s : FVec Ideal S1024x2048 .f32) (r : Fin 1024) (j : Fin 2048) :
    normalized s (ix2 r j) = softmaxRow (fun j' => s (ix2 r j')) j := by
  show Ideal.div (shifted s (ix2 r j)) (column (rowSums (shifted s)) (ix2 r j)) = _
  rw [column_apply, rowSums_apply, shifted_apply]
  simp only [shifted_apply]
  rfl

/-! ## The two payloads at an index -/

/-- The attention payload at (r, j) is the softmax of row r's scores at j. -/
theorem attn_payload (r : Fin 1024) (j : Fin 2048) : k0_pay1 P0 P1 P2 (ix2 r j) = softmaxRow (blockScores P0 P1 P2 r) j := by
  rw [attn_steps, normalized_apply]
  exact congrArg (fun s => softmaxRow s j) (funext fun j' => bodyScores_apply P0 P1 P2 r j')

/-- The context payload at (r, d) is row r's weights against column d of the v block. -/
theorem ctx_payload (u u' : Fin 1) (r : Fin 1024) (d : Fin 64) :
    k0_pay3 P0 P1 P2 P3 (ix4 u u' r d) = ∑ j : Fin 2048, softmaxRow (blockScores P0 P1 P2 r) j * P3 (ix4 (0 : Fin 1) (0 : Fin 1) j d) := by
  rw [ctx_steps, shapeCast_ab_11ab_apply, av_apply]
  refine Finset.sum_congr rfl fun j _ => ?_
  rw [attn_payload, shapeCast_11ab_ab_apply]

end Cert.KernelIdeal.BlockValue

end
-- ==== Proof.ResultArrays.lean ====
/- From blocks to whole arrays.

   Grid point t = (b, qt, h) works on batch entry b, head h and query rows qt·1024 … qt·1024 + 1023.  Its q block is
   rows of q(b, h), its k and v blocks are all of k(b, h) and v(b, h), its mask block is the same rows of the mask
   words of batch entry b, and it writes back the same rows of attn(b, h) and of context(b, h).  So row r of the
   block is query row i = qt·1024 + r of the arrays, the block's scores are the array's scores of that row, and what
   the point writes back is the block of the specification's arrays at its position.  The 128 points' blocks cover
   both result arrays: (b, h, i, ·) is written by the point with qt = i / 1024. -/
import proofs.«143793_j82325933130226_2_alg».proof.Proof.Gen.KernelIdeal.Value
import proofs.«143793_j82325933130226_2_alg».proof.Proof.BlockAttention
import Idealize.ShloMosaic.Lib.Pipeline.Value
import Idealize.ShloMosaic.Lib.StableHlo.Run
import Idealize.ShloMosaic.Lib.Tactic

noncomputable section

namespace Cert.KernelIdeal.ArrayValue

open Cert.KernelIdeal Cert.KernelIdeal.Gen Cert.KernelIdeal.BlockValue Cert.Attention Cert.LibUnitAxes
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The arguments and the two results -/

abbrev qOf (c : Dev nD) : S4x16x2048x64.Idx → EReal := m ((c : Thread nD τ).loc main_arg0)
abbrev kOf (c : Dev nD) : S4x16x64x2048.Idx → EReal := m ((c : Thread nD τ).loc main_arg1)
abbrev vOf (c : Dev nD) : S4x16x2048x64.Idx → EReal := m ((c : Thread nD τ).loc main_arg2)
abbrev maskOf (c : Dev nD) : S4x1x2048x2048.Idx → BitVec 1 := m ((c : Thread nD τ).loc main_arg3)

/-- The attention and the context of the specification, of the arguments as launched. -/
abbrev attnOf (c : Dev nD) : S4x16x2048x2048.Idx → EReal := attnArr (qOf m c) (kOf m c) (maskOf m c)
abbrev ctxOf (c : Dev nD) : S4x16x2048x64.Idx → EReal := ctxArr (qOf m c) (kOf m c) (vOf m c) (maskOf m c)

/-! ## Where the windows' blocks sit, decided over the 128 grid points -/

theorem block_positions : ∀ t : Fin cfg0.N,
    win0_0.index t (0 : Fin 4) = win0_5.index t (0 : Fin 4) ∧ win0_0.index t (1 : Fin 4) = win0_5.index t (1 : Fin 4)
    ∧ win0_0.index t (2 : Fin 4) = win0_5.index t (2 : Fin 4) ∧ win0_0.index t (3 : Fin 4) = 0
    ∧ win0_1.index t (0 : Fin 4) = win0_5.index t (0 : Fin 4) ∧ win0_1.index t (1 : Fin 4) = win0_5.index t (1 : Fin 4)
    ∧ win0_1.index t (2 : Fin 4) = 0 ∧ win0_1.index t (3 : Fin 4) = 0
    ∧ win0_2.index t (0 : Fin 4) = win0_5.index t (0 : Fin 4) ∧ win0_2.index t (1 : Fin 4) = win0_5.index t (1 : Fin 4)
    ∧ win0_2.index t (2 : Fin 4) = 0 ∧ win0_2.index t (3 : Fin 4) = 0
    ∧ win0_3.index t (0 : Fin 4) = win0_5.index t (0 : Fin 4) ∧ win0_3.index t (1 : Fin 4) = 0
    ∧ win0_3.index t (2 : Fin 4) = win0_5.index t (2 : Fin 4) ∧ win0_3.index t (3 : Fin 4) = 0
    ∧ win0_4.index t (0 : Fin 4) = win0_5.index t (0 : Fin 4) ∧ win0_4.index t (1 : Fin 4) = win0_5.index t (1 : Fin 4)
    ∧ win0_4.index t (2 : Fin 4) = win0_5.index t (2 : Fin 4) ∧ win0_4.index t (3 : Fin 4) = 0
    ∧ win0_5.index t (3 : Fin 4) = 0
    ∧ win0_5.index t (0 : Fin 4) < 4 ∧ win0_5.index t (1 : Fin 4) < 16 ∧ win0_5.index t (2 : Fin 4) < 2 :=
  (by decide +kernel : ∀ t : Fin grid0.N, _)

/-- Every (batch entry, head, half of the query rows) is some point's. -/
theorem position_onto : ∀ (q0 : Fin 4) (q1 : Fin 16) (q2 : Fin 2), ∃ t : Fin cfg0.N, win0_5.index t = ![q0.val, q1.val, q2.val, 0] :=
  (by decide +kernel : ∀ (q0 : Fin 4) (q1 : Fin 16) (q2 : Fin 2), ∃ t : Fin grid0.N, win0_5.index t = ![q0.val, q1.val, q2.val, 0])

/-! ## The input blocks as entries of the arguments -/

/-- Row r, column d of the q block at t is q at (b, h, qt·1024 + r, d). -/
theorem q_block (c : Dev nD) (t : Fin cfg0.N) (r : Fin 1024) (d : Fin 64) (b : Fin 4) (h : Fin 16) (i : Fin 2048)
    (hb : win0_0.index t (0 : Fin 4) = b.val) (hh : win0_0.index t (1 : Fin 4) = h.val)
    (hi : win0_0.index t (2 : Fin 4) * 1024 + r.val = i.val) (h3 : win0_0.index t (3 : Fin 4) = 0) :
    (iblk m c 0 t : Vec Ideal S1x1x1024x64 .f32) (ix4 (0 : Fin 1) (0 : Fin 1) r d) = qOf m c (ix4 b h i d) := by
  unfold iblk
  rw [View.read_apply]
  show V m c main_arg0 _ = _
  rw [V_main_arg0]
  refine congrArg _ (funext fun a => Fin.ext ?_)
  match a with
  | ⟨0, _⟩ => show win0_0.index t (0 : Fin 4) * 1 + 1 * 0 = b.val; omega
  | ⟨1, _⟩ => show win0_0.index t (1 : Fin 4) * 1 + 1 * 0 = h.val; omega
  | ⟨2, _⟩ => show win0_0.index t (2 : Fin 4) * 1024 + 1 * r.val = i.val; omega
  | ⟨3, _⟩ => show win0_0.index t (3 : Fin 4) * 64 + 1 * d.val = d.val; omega

/-- Row d, column j of the k block at t is k at (b, h, d, j). -/
theorem k_block (c : Dev nD) (t : Fin cfg0.N) (d : Fin 64) (j : Fin 2048) (b : Fin 4) (h : Fin 16)
    (hb : win0_1.index t (0 : Fin 4) = b.val) (hh : win0_1.index t (1 : Fin 4) = h.val)
    (h2 : win0_1.index t (2 : Fin 4) = 0) (h3 : win0_1.index t (3 : Fin 4) = 0) :
    (iblk m c 1 t : Vec Ideal S1x1x64x2048 .f32) (ix4 (0 : Fin 1) (0 : Fin 1) d j) = kOf m c (ix4 b h d j) := by
  unfold iblk
  rw [View.read_apply]
  show V m c main_arg1 _ = _
  rw [V_main_arg1]
  refine congrArg _ (funext fun a => Fin.ext ?_)
  match a with
  | ⟨0, _⟩ => show win0_1.index t (0 : Fin 4) * 1 + 1 * 0 = b.val; omega
  | ⟨1, _⟩ => show win0_1.index t (1 : Fin 4) * 1 + 1 * 0 = h.val; omega
  | ⟨2, _⟩ => show win0_1.index t (2 : Fin 4) * 64 + 1 * d.val = d.val; omega
  | ⟨3, _⟩ => show win0_1.index t (3 : Fin 4) * 2048 + 1 * j.val = j.val; omega

/-- Row j, column d of the v block at t is v at (b, h, j, d). -/
theorem v_block (c : Dev nD) (t : Fin cfg0.N) (j : Fin 2048) (d : Fin 64) (b : Fin 4) (h : Fin 16)
    (hb : win0_2.index t (0 : Fin 4) = b.val) (hh : win0_2.index t (1 : Fin 4) = h.val)
    (h2 : win0_2.index t (2 : Fin 4) = 0) (h3 : win0_2.index t (3 : Fin 4) = 0) :
    (iblk m c 2 t : Vec Ideal S1x1x2048x64 .f32) (ix4 (0 : Fin 1) (0 : Fin 1) j d) = vOf m c (ix4 b h j d) := by
  unfold iblk
  rw [View.read_apply]
  show V m c main_arg2 _ = _
  rw [V_main_arg2]
  refine congrArg _ (funext fun a => Fin.ext ?_)
  match a with
  | ⟨0, _⟩ => show win0_2.index t (0 : Fin 4) * 1 + 1 * 0 = b.val; omega
  | ⟨1, _⟩ => show win0_2.index t (1 : Fin 4) * 1 + 1 * 0 = h.val; omega
  | ⟨2, _⟩ => show win0_2.index t (2 : Fin 4) * 2048 + 1 * j.val = j.val; omega
  | ⟨3, _⟩ => show win0_2.index t (3 : Fin 4) * 64 + 1 * d.val = d.val; omega

/-- The array of mask words the region finds is the mask's bits widened to 32-bit words. -/
theorem mask_words (c : Dev nD) :
    (V m c main_v0 : S4x1x2048x2048.Idx → BitVec 32) = extui 32 (maskOf m c) natLt_1_32 := by
  dsimp only [V, hostOps0]
  after_results <;> rfl

/-- A bit widened to a word is not the zero word exactly when the bit is set. -/
theorem widened_ne_zero (x : BitVec 1) : IntOp.cmpi .ne (x.setWidth 32) 0#32 = x := by
  rcases BitVec.eq_zero_or_eq_one x with h | h <;> subst h <;> decide

/-- Row r, column j of the mask block at t, tested against zero, is the mask bit at (b, 0, qt·1024 + r, j). -/
theorem mask_block (c : Dev nD) (t : Fin cfg0.N) (r : Fin 1024) (j : Fin 2048) (b : Fin 4) (i : Fin 2048)
    (hb : win0_3.index t (0 : Fin 4) = b.val) (h1 : win0_3.index t (1 : Fin 4) = 0)
    (hi : win0_3.index t (2 : Fin 4) * 1024 + r.val = i.val) (h3 : win0_3.index t (3 : Fin 4) = 0) :
    IntOp.cmpi .ne ((iblk m c 3 t : Vec Ideal S1x1x1024x2048 .i32) (ix4 (0 : Fin 1) (0 : Fin 1) r j)) 0#32
      = maskOf m c (ix4 b (0 : Fin 1) i j) := by
  have e : (iblk m c 3 t : Vec Ideal S1x1x1024x2048 .i32) (ix4 (0 : Fin 1) (0 : Fin 1) r j)
      = (maskOf m c (ix4 b (0 : Fin 1) i j)).setWidth 32 := by
    unfold iblk
    rw [View.read_apply]
    show (V m c main_v0 : S4x1x2048x2048.Idx → BitVec 32) _ = _
    rw [mask_words]
    refine congrArg (fun x => (maskOf m c x).setWidth 32) (funext fun a => Fin.ext ?_)
    match a with
    | ⟨0, _⟩ => show win0_3.index t (0 : Fin 4) * 1 + 1 * 0 = b.val; omega
    | ⟨1, _⟩ => show win0_3.index t (1 : Fin 4) * 1 + 1 * 0 = 0; omega
    | ⟨2, _⟩ => show win0_3.index t (2 : Fin 4) * 1024 + 1 * r.val = i.val; omega
    | ⟨3, _⟩ => show win0_3.index t (3 : Fin 4) * 2048 + 1 * j.val = j.val; omega
  rw [e]
  exact widened_ne_zero _

/-- The scores of row r of the blocks at t are the arrays' scores of query row (b, h, qt·1024 + r). -/
theorem block_scores (c : Dev nD) (t : Fin cfg0.N) (r : Fin 1024) (b : Fin 4) (h : Fin 16) (i : Fin 2048)
    (hb : win0_5.index t (0 : Fin 4) = b.val) (hh : win0_5.index t (1 : Fin 4) = h.val)
    (hi : win0_5.index t (2 : Fin 4) * 1024 + r.val = i.val) :
    blockScores (iblk m c 0 t) (iblk m c 1 t) (iblk m c 3 t) r = scoresAt (qOf m c) (kOf m c) (maskOf m c) b h i := by
  obtain ⟨a0, a1, a2, a3, b0, b1, b2, b3, c0, c1, c2, c3, d0, d1, d2, d3, e0, e1, e2, e3, f3, l0, l1, l2⟩ := block_positions t
  funext j
  unfold blockScores scoresAt
  have eq : (fun d : Fin 64 => (iblk m c 0 t : Vec Ideal S1x1x1024x64 .f32) (ix4 (0 : Fin 1) (0 : Fin 1) r d))
      = fun d => qOf m c (ix4 b h i d) :=
    funext fun d => q_block m c t r d b h i (by omega) (by omega) (by omega) a3
  have ek : (fun d : Fin 64 => (iblk m c 1 t : Vec Ideal S1x1x64x2048 .f32) (ix4 (0 : Fin 1) (0 : Fin 1) d j))
      = fun d => kOf m c (ix4 b h d j) :=
    funext fun d => k_block m c t d j b h (by omega) (by omega) b2 b3
  have em := mask_block m c t r j b i (by omega) d1 (by omega) d3
  exact (congrArg (fun f => score f _ _) eq).trans ((congrArg (fun f => score _ f _) ek).trans (congrArg (fun x => score _ _ x) em))

/-! ## What the body leaves in the two output buffers -/

theorem zero_offsets : (![0, 0, 0, 0] : Fin 4 → Nat) = fun _ => 0 := funext fun a => by fin_cases a <;> rfl

/-- The attention buffer after the body, at (·, ·, r, j): the softmax of row r's scores at j. -/
theorem attn_stored (x0 : Vec Ideal S1x1x1024x64 .f32) (x1 : Vec Ideal S1x1x64x2048 .f32) (x2 : Vec Ideal S1x1x2048x64 .f32)
    (x3 : Vec Ideal S1x1x1024x2048 .i32) (u u' : Fin 1) (r : Fin 1024) (j : Fin 2048) :
    out0_5 x0 x1 x2 x3 (ix4 u u' r j) = softmaxRow (blockScores x0 x1 x3 r) j := by
  unfold out0_5
  rw [View.canon_unit_zero zero_offsets]
  simp only [View.ld_unit_zero (S := S1x1x1024x64) zero_offsets, View.ld_unit_zero (S := S1x1x64x2048) zero_offsets,
    View.ld_unit_zero (S := S1x1x1024x2048) zero_offsets]
  rw [Cert.KernelIdeal.Value.lay5_0_eq, shapeCast_ab_11ab_apply]
  exact attn_payload x0 x1 x3 r j

/-- The context buffer after the body, at (·, ·, r, d): row r's weights against column d of the v block. -/
theorem ctx_stored (x0 : Vec Ideal S1x1x1024x64 .f32) (x1 : Vec Ideal S1x1x64x2048 .f32) (x2 : Vec Ideal S1x1x2048x64 .f32)
    (x3 : Vec Ideal S1x1x1024x2048 .i32) (u u' : Fin 1) (r : Fin 1024) (d : Fin 64) :
    out0_4 x0 x1 x2 x3 (ix4 u u' r d)
      = ∑ j : Fin 2048, softmaxRow (blockScores x0 x1 x3 r) j * x2 (ix4 (0 : Fin 1) (0 : Fin 1) j d) := by
  unfold out0_4
  rw [View.canon_unit_zero zero_offsets]
  simp only [View.ld_unit_zero (S := S1x1x1024x64) zero_offsets, View.ld_unit_zero (S := S1x1x64x2048) zero_offsets,
    View.ld_unit_zero (S := S1x1x1024x2048) zero_offsets, View.ld_unit_zero (S := S1x1x2048x64) zero_offsets]
  exact ctx_payload x0 x1 x3 x2 u u' r d

/-! ## What each point writes back -/

/-- The attention buffer at point t is the block of the specification's attention at t's position. -/
theorem attn_block_at (c : Dev nD) (t : Fin cfg0.N) (y : S1x1x1024x2048.Idx) :
    out0_5 (iblk m c 0 t) (iblk m c 1 t) (iblk m c 2 t) (iblk m c 3 t) y = attnOf m c (((cfg0.win 5).blk t).view.emb y) := by
  obtain ⟨u, u', r, j, rfl⟩ : ∃ (u u' : Fin 1) (r : Fin 1024) (j : Fin 2048), y = ix4 u u' r j := ⟨y 0, y 1, y 2, y 3, eq_ix4 y⟩
  obtain ⟨a0, a1, a2, a3, b0, b1, b2, b3, c0, c1, c2, c3, d0, d1, d2, d3, e0, e1, e2, e3, f3, l0, l1, l2⟩ := block_positions t
  have hu : u.val = 0 := by omega
  have hu' : u'.val = 0 := by omega
  have hi : win0_5.index t (2 : Fin 4) * 1024 + r.val < 2048 := by have := r.isLt; omega
  refine (attn_stored (iblk m c 0 t) (iblk m c 1 t) (iblk m c 2 t) (iblk m c 3 t) u u' r j).trans ?_
  rw [block_scores m c t r ⟨win0_5.index t (0 : Fin 4), l0⟩ ⟨win0_5.index t (1 : Fin 4), l1⟩ ⟨win0_5.index t (2 : Fin 4) * 1024 + r.val, hi⟩ rfl rfl rfl]
  have hemb : ((cfg0.win 5).blk t).view.emb (ix4 u u' r j)
      = (ix4 (⟨win0_5.index t (0 : Fin 4), l0⟩ : Fin 4) (⟨win0_5.index t (1 : Fin 4), l1⟩ : Fin 16)
          (⟨win0_5.index t (2 : Fin 4) * 1024 + r.val, hi⟩ : Fin 2048) j : S4x16x2048x2048.Idx) := by
    funext a; apply Fin.ext
    match a with
    | ⟨0, _⟩ => show win0_5.index t (0 : Fin 4) * 1 + 1 * u.val = win0_5.index t (0 : Fin 4); omega
    | ⟨1, _⟩ => show win0_5.index t (1 : Fin 4) * 1 + 1 * u'.val = win0_5.index t (1 : Fin 4); omega
    | ⟨2, _⟩ => show win0_5.index t (2 : Fin 4) * 1024 + 1 * r.val = win0_5.index t (2 : Fin 4) * 1024 + r.val; omega
    | ⟨3, _⟩ => show win0_5.index t (3 : Fin 4) * 2048 + 1 * j.val = j.val; omega
  rw [hemb]
  rfl

/-- The context buffer at point t is the block of the specification's context at t's position. -/
theorem ctx_block_at (c : Dev nD) (t : Fin cfg0.N) (y : S1x1x1024x64.Idx) :
    out0_4 (iblk m c 0 t) (iblk m c 1 t) (iblk m c 2 t) (iblk m c 3 t) y = ctxOf m c (((cfg0.win 4).blk t).view.emb y) := by
  obtain ⟨u, u', r, d, rfl⟩ : ∃ (u u' : Fin 1) (r : Fin 1024) (d : Fin 64), y = ix4 u u' r d := ⟨y 0, y 1, y 2, y 3, eq_ix4 y⟩
  obtain ⟨a0, a1, a2, a3, b0, b1, b2, b3, c0, c1, c2, c3, d0, d1, d2, d3, e0, e1, e2, e3, f3, l0, l1, l2⟩ := block_positions t
  have hu : u.val = 0 := by omega
  have hu' : u'.val = 0 := by omega
  have hi : win0_5.index t (2 : Fin 4) * 1024 + r.val < 2048 := by have := r.isLt; omega
  refine (ctx_stored (iblk m c 0 t) (iblk m c 1 t) (iblk m c 2 t) (iblk m c 3 t) u u' r d).trans ?_
  rw [block_scores m c t r ⟨win0_5.index t (0 : Fin 4), l0⟩ ⟨win0_5.index t (1 : Fin 4), l1⟩ ⟨win0_5.index t (2 : Fin 4) * 1024 + r.val, hi⟩ rfl rfl rfl]
  have hemb : ((cfg0.win 4).blk t).view.emb (ix4 u u' r d)
      = (ix4 (⟨win0_5.index t (0 : Fin 4), l0⟩ : Fin 4) (⟨win0_5.index t (1 : Fin 4), l1⟩ : Fin 16)
          (⟨win0_5.index t (2 : Fin 4) * 1024 + r.val, hi⟩ : Fin 2048) d : S4x16x2048x64.Idx) := by
    funext a; apply Fin.ext
    match a with
    | ⟨0, _⟩ => show win0_4.index t (0 : Fin 4) * 1 + 1 * u.val = win0_5.index t (0 : Fin 4); omega
    | ⟨1, _⟩ => show win0_4.index t (1 : Fin 4) * 1 + 1 * u'.val = win0_5.index t (1 : Fin 4); omega
    | ⟨2, _⟩ => show win0_4.index t (2 : Fin 4) * 1024 + 1 * r.val = win0_5.index t (2 : Fin 4) * 1024 + r.val; omega
    | ⟨3, _⟩ => show win0_4.index t (3 : Fin 4) * 64 + 1 * d.val = d.val; omega
  rw [hemb]
  show _ = ctxAt (qOf m c) (kOf m c) (vOf m c) (maskOf m c) _ _ _ d
  unfold ctxAt
  refine Finset.sum_congr rfl fun j _ => ?_
  rw [v_block m c t j d ⟨win0_5.index t (0 : Fin 4), l0⟩ ⟨win0_5.index t (1 : Fin 4), l1⟩ c0 c1 c2 c3]
  rfl

theorem attn_block (c : Dev nD) (t : Fin cfg0.N) :
    (dats m 0 c).flushed 5 t = ((cfg0.win 5).blk t).view.read (Elt Ideal) (attnOf m c) := by
  rw [Cert.KernelIdeal.Value.flushed5]
  funext y
  exact attn_block_at m c t y

theorem ctx_block (c : Dev nD) (t : Fin cfg0.N) :
    (dats m 0 c).flushed 4 t = ((cfg0.win 4).blk t).view.read (Elt Ideal) (ctxOf m c) := by
  rw [Cert.KernelIdeal.Value.flushed4]
  funext y
  exact ctx_block_at m c t y

/-! ## The blocks cover the arrays -/

theorem mem_attn_block (t : Fin cfg0.N) (i : S4x16x2048x2048.Idx) :
    i ∈ ((cfg0.win 5).blk t).view.set ↔ ∀ a : Fin 4, win0_5.index t a * S1x1x1024x2048.size a ≤ (i a).val
      ∧ (i a).val < win0_5.index t a * S1x1x1024x2048.size a + S1x1x1024x2048.size a := by
  show i ∈ ((View.whole main_v1_1).slice (win0_5.rect t)).set ↔ _
  rw [View.set_slice_whole, Rect.mem_set_unit]
  exact Iff.rfl

theorem mem_ctx_block (t : Fin cfg0.N) (i : S4x16x2048x64.Idx) :
    i ∈ ((cfg0.win 4).blk t).view.set ↔ ∀ a : Fin 4, win0_4.index t a * S1x1x1024x64.size a ≤ (i a).val
      ∧ (i a).val < win0_4.index t a * S1x1x1024x64.size a + S1x1x1024x64.size a := by
  show i ∈ ((View.whole main_v1_0).slice (win0_4.rect t)).set ↔ _
  rw [View.set_slice_whole, Rect.mem_set_unit]
  exact Iff.rfl

/-- Every entry of attn is in the block of the point with its batch entry, its head and qt = i / 1024. -/
theorem attn_cover (i : S4x16x2048x2048.Idx) :
    ∃ t : Fin cfg0.N, (cfg0.win 5).flush t = true ∧ i ∈ ((cfg0.win 5).blk t).view.set := by
  have h0 : (i 0).val < 4 := (i 0).isLt
  have h1 : (i 1).val < 16 := (i 1).isLt
  have h2 : (i 2).val < 2048 := (i 2).isLt
  have h3 : (i 3).val < 2048 := (i 3).isLt
  obtain ⟨t, ht⟩ := position_onto ⟨(i 0).val, h0⟩ ⟨(i 1).val, h1⟩ ⟨(i 2).val / 1024, by omega⟩
  have q0 : win0_5.index t (0 : Fin 4) = (i 0).val := congrFun ht 0
  have q1 : win0_5.index t (1 : Fin 4) = (i 1).val := congrFun ht 1
  have q2 : win0_5.index t (2 : Fin 4) = (i 2).val / 1024 := congrFun ht 2
  have q3 : win0_5.index t (3 : Fin 4) = 0 := congrFun ht 3
  refine ⟨t, flush0_5 t, ?_⟩
  rw [mem_attn_block]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 1 ≤ (i 1).val ∧ (i 1).val < win0_5.index t (1 : Fin 4) * 1 + 1; omega
  | ⟨2, _⟩ => show win0_5.index t (2 : Fin 4) * 1024 ≤ (i 2).val ∧ (i 2).val < win0_5.index t (2 : Fin 4) * 1024 + 1024; omega
  | ⟨3, _⟩ => show win0_5.index t (3 : Fin 4) * 2048 ≤ (i 3).val ∧ (i 3).val < win0_5.index t (3 : Fin 4) * 2048 + 2048; omega

/-- Every entry of the context likewise. -/
theorem ctx_cover (i : S4x16x2048x64.Idx) :
    ∃ t : Fin cfg0.N, (cfg0.win 4).flush t = true ∧ i ∈ ((cfg0.win 4).blk t).view.set := by
  have h0 : (i 0).val < 4 := (i 0).isLt
  have h1 : (i 1).val < 16 := (i 1).isLt
  have h2 : (i 2).val < 2048 := (i 2).isLt
  have h3 : (i 3).val < 64 := (i 3).isLt
  obtain ⟨t, ht⟩ := position_onto ⟨(i 0).val, h0⟩ ⟨(i 1).val, h1⟩ ⟨(i 2).val / 1024, by omega⟩
  obtain ⟨a0, a1, a2, a3, b0, b1, b2, b3, c0, c1, c2, c3, d0, d1, d2, d3, e0, e1, e2, e3, f3, l0, l1, l2⟩ := block_positions t
  have q0 : win0_5.index t (0 : Fin 4) = (i 0).val := congrFun ht 0
  have q1 : win0_5.index t (1 : Fin 4) = (i 1).val := congrFun ht 1
  have q2 : win0_5.index t (2 : Fin 4) = (i 2).val / 1024 := congrFun ht 2
  refine ⟨t, flush0_4 t, ?_⟩
  rw [mem_ctx_block]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 1 ≤ (i 1).val ∧ (i 1).val < win0_4.index t (1 : Fin 4) * 1 + 1; omega
  | ⟨2, _⟩ => show win0_4.index t (2 : Fin 4) * 1024 ≤ (i 2).val ∧ (i 2).val < win0_4.index t (2 : Fin 4) * 1024 + 1024; omega
  | ⟨3, _⟩ => show win0_4.index t (3 : Fin 4) * 64 ≤ (i 3).val ∧ (i 3).val < win0_4.index t (3 : Fin 4) * 64 + 64; omega

/-! ## The result arrays after the run -/

theorem attn_final (c : Dev nD) : (dats m 0 c).arrAt 5 cfg0.N = attnOf m c :=
  (dats m 0 c).arrAt_eq_of_cover 5 (attnOf m c) (fun t _ => attn_block m c t) attn_cover

theorem ctx_final (c : Dev nD) : (dats m 0 c).arrAt 4 cfg0.N = ctxOf m c :=
  (dats m 0 c).arrAt_eq_of_cover 4 (ctxOf m c) (fun t _ => ctx_block m c t) ctx_cover

/-- Every weakly fair execution of the kernel's program ends with the context and the attention of the specification
    in its two result arrays, the arguments unchanged. -/
theorem run : θ_run defs (onTc (τ := τ) (main (F := Ideal))) ⟨m, fun _ => 0, ρ⟩ fun r => ∀ c : Dev nD,
      r.2.mem ((c : Thread nD τ).loc main_v1_0) = ctxOf m c
      ∧ r.2.mem ((c : Thread nD τ).loc main_v1_1) = attnOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (ctx_final m c), (h c).2.1.trans (attn_final m c), (h c).2.2⟩)
    (Cert.KernelIdeal.Value.run_blocks m ρ)

end Cert.KernelIdeal.ArrayValue

end
-- ==== Proof.lean ====
/- Masked softmax attention, one head at a time.  With s(b,h,i,j) = (Σ_d q(b,h,i,d)·k(b,h,d,j))·(1/8), replaced by
   -10⁹ where mask(b,0,i,j) is set, both programs compute attn = exp(s − max_j s) / Σ_j exp(s − max_j s) and
   context = Σ_j attn(b,h,i,j)·v(b,h,j,d) on the extended reals.  The kernel does it per block of 1024 query rows of one
   head; the reference on the whole arrays, taking the row maximum once more against -∞, which changes nothing.  The two
   are one function of the arguments, index by index: no step uses that the inputs are finite.

   Attention.lean states that function; ReferenceAttention.lean reads the reference's stages as it; BlockAttention.lean
   reads the kernel body's operations on one block; ResultArrays.lean places the blocks in the arrays and covers them. -/
import proofs.«143793_j82325933130226_2_alg».proof.Defs
import proofs.«143793_j82325933130226_2_alg».proof.Proof.Gen.Kernel
import proofs.«143793_j82325933130226_2_alg».proof.Proof.Gen.Kernel.Frame
import proofs.«143793_j82325933130226_2_alg».proof.Proof.Gen.KernelIdeal
import proofs.«143793_j82325933130226_2_alg».proof.Proof.Gen.KernelIdeal.Frame
import proofs.«143793_j82325933130226_2_alg».proof.Proof.Gen.KernelIdeal.Value
import proofs.«143793_j82325933130226_2_alg».proof.Proof.Gen.ReferenceIdeal
import proofs.«143793_j82325933130226_2_alg».proof.Proof.Gen.ReferenceIdeal.Run
import proofs.«143793_j82325933130226_2_alg».proof.Proof.Gen.ReferenceIdeal.Read
import proofs.«143793_j82325933130226_2_alg».proof.Proof.Gen.Pre_finite_inputs
import proofs.«143793_j82325933130226_2_alg».proof.Proof.ReferenceAttention
import proofs.«143793_j82325933130226_2_alg».proof.Proof.ResultArrays
import Idealize.ShloMosaic.Adequacy
import Idealize.ShloMosaic.Init

noncomputable section

namespace Cert.Proof

open Idealize.ShloMosaic Idealize.ShloMosaic.TcCoe Idealize.SL.Sem

/-- The kernel's program, as printed and idealized, terminates without a fault and leaves its arguments as they were. -/
theorem frame_kernel [Cert.Kernel.Facts] [Cert.Pre_finite_inputs.Facts] : Cert.frame_Kernel :=
  fun m ρ _ => Cert.Kernel.Gen.frame m ρ
theorem frame_kernel_ideal [Cert.KernelIdeal.Facts] [Cert.Pre_finite_inputs.Facts] : Cert.frame_KernelIdeal :=
  fun m ρ _ => Cert.KernelIdeal.Gen.frame m ρ

/-- So does the reference: its run, with the two results dropped. -/
theorem frame_reference [Cert.ReferenceIdeal.Facts] [Cert.Pre_finite_inputs.Facts] : Cert.frame_ReferenceIdeal :=
  fun m ρ _ => (θ_run Cert.ReferenceIdeal.defs _ _).mono (fun _ h c => (h c).2.2)
    (Cert.ReferenceIdeal.Value.run (F := Ideal) m ρ)

/-- From memories that agree on q, k, v and the mask, the kernel ends with the specification's context and attention in
    its result arrays (the blocks placed and covered) and the reference with the same two functions of the same arguments
    (its stages read one by one). -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.ArrayValue.ctxOf m c, fun c => Cert.KernelIdeal.ArrayValue.attnOf m c,
    Cert.KernelIdeal.ArrayValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v15_eq, Cert.ReferenceIdeal.RefValue.ctx_result, (hagree c).1, (hagree c).2.1,
      (hagree c).2.2.1, (hagree c).2.2.2]
  · rw [Cert.ReferenceIdeal.Read.val_main_v14_eq, Cert.ReferenceIdeal.RefValue.attn_result, (hagree c).1, (hagree c).2.1,
      (hagree c).2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
